-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x64, .f32⟩
  | .hbm, ⟨115, _⟩ => ⟨S850000x1, .f32⟩
  | .hbm, ⟨116, _⟩ => ⟨S850000x64, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The function both programs compute, stated once.

  A two-layer graph convolution on `n = 50000` nodes and `800000` directed edges, with one self loop per node
  appended (850000 index pairs in all). With `s`, `d` the source and destination index vectors,
  `deg[v] = #{e | d e = v}`, `dinv = deg > 0 ? deg^(-1/2) : 0` and the edge weight `nrm e = dinv[s e] * dinv[d e]`,
  one layer maps a node-feature matrix `h` to `out[v, :] = (∑_{e : d e = v} h[s e, :] * nrm e) + b`; the network is
  `layer₂ (relu (layer₁ (x · W₁)) · W₂)`. Every stage below is spelt with the very host operations both printed
  programs apply (slice, reshape, iota, concatenate, scatter-add, compare, rsqrt, select, gather, multiply, add,
  maximum), so that each program's own term is an instance of it; the two dense products `x · W₁` and `h · W₂` are
  stated as plain sums over the contracted axis, the form in which a tiled product and a whole product meet.
-/
import proofs.«117685_j69836168233269_1_alg».proof.Proof.Gen.KernelIdeal
import Idealize.ShloMosaic.PureOps.Ideal
import Idealize.ShloMosaic.Lib.ValueIdx

noncomputable section

namespace Cert.Gcn

open Idealize.ShloMosaic Cert.KernelIdeal Cert.KernelIdeal.Facts₀

variable {F : FTy → Type} [FloatOps F]

/-- The source node of every index pair: row 0 of the edge list, then the nodes themselves (the self loops). -/
def srcIdx (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The destination node of every index pair: row 1 of the edge list, then the nodes themselves. -/
def dstIdx (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- An index vector as a column. -/
def col (v : IVec S850000 32) : IVec S850000x1 32 := broadcastInDim S850000x1 ![0] bcast_S850000_S850000x1_0 v

/-- Negative indices count from the end: `v < 0 ? v + 50000 : v`, as a column of gather indices. -/
def wrapCol (v : IVec S850000 32) : IVec S850000x1 32 :=
  col (select (cmpi .slt v (broadcastInDim S850000 ![] bcast_S_S850000 (constantI S_ 32 0#32)))
    (addi v (broadcastInDim S850000 ![] bcast_S_S850000 (constantI S_ 32 50000#32))) v)

/-- The in-degree of every node (self loop included), as a float: ones scattered onto zeros along `d`. -/
def degree (d : IVec S850000 32) : FVec F S50000 .f32 :=
  Host.scatterAdd scatter_S50000_S850000x1_S850000_n_0_0_1
    (broadcastInDim S50000 ![] bcast_S_S50000 (constant S_ .f32 0x00000000#32)) (col d)
    (broadcastInDim S850000 ![] bcast_S_S850000 (constant S_ .f32 0x3F800000#32))

/-- `deg > 0 ? deg^(-1/2) : 0`. -/
def degInvSqrt (d : IVec S850000 32) : FVec F S50000 .f32 :=
  select (cmpf .ogt (degree (F := F) d) (broadcastInDim S50000 ![] bcast_S_S50000 (constant S_ .f32 0x00000000#32)))
    (Host.rsqrt (degree (F := F) d))
    (broadcastInDim S50000 ![] bcast_S_S50000 (id (constant S_ .f32 0x00000000#32)))

/-- The symmetric normalisation of every index pair: `dinv[s] * dinv[d]`. -/
def edgeNorm (s d : IVec S850000 32) : FVec F S850000 .f32 :=
  mulf (Host.gather gather_S50000_S850000x1_S850000_n_0_n_n_0_1_1 (degInvSqrt (F := F) d) (wrapCol s))
    (Host.gather gather_S50000_S850000x1_S850000_n_0_n_n_0_1_1 (degInvSqrt (F := F) d) (wrapCol d))

/-- One aggregation over 256 features: gather the source rows, scale by the pair's weight, scatter-add onto the
    destination rows, add the bias. -/
def conv256 (h : FVec F S50000x256 .f32) (s d : IVec S850000 32) (nrm : FVec F S850000 .f32) (b : FVec F S256 .f32) :
    FVec F S50000x256 .f32 :=
  addf (Host.scatterAdd scatter_S50000x256_S850000x1_S850000x256_1_0_0_1
      (broadcastInDim S50000x256 ![] bcast_S_S50000x256 (constant S_ .f32 0x00000000#32)) (col d)
      (mulf (Host.gather gather_S50000x256_S850000x1_S850000x256_1_0_n_n_0_1_1256 h (wrapCol s))
        (broadcastInDim S850000x256 ![0, 1] bcast_S850000x1_S850000x256_0_1
          (broadcastInDim S850000x1 ![0] bcast_S850000_S850000x1_0 nrm))))
    (broadcastInDim S50000x256 ![0, 1] bcast_S1x256_S50000x256_0_1 (broadcastInDim S1x256 ![1] bcast_S256_S1x256_1 b))

/-- `max(a, 0)`. -/
def relu256 (a : FVec F S50000x256 .f32) : FVec F S50000x256 .f32 :=
  maximumf a (broadcastInDim S50000x256 ![] bcast_S_S50000x256 (constant S_ .f32 0x00000000#32))

/-- The same aggregation over 64 features. -/
def conv64 (h : FVec F S50000x64 .f32) (s d : IVec S850000 32) (nrm : FVec F S850000 .f32) (b : FVec F S64 .f32) :
    FVec F S50000x64 .f32 :=
  addf (Host.scatterAdd scatter_S50000x64_S850000x1_S850000x64_1_0_0_1
      (broadcastInDim S50000x64 ![] bcast_S_S50000x64 (constant S_ .f32 0x00000000#32)) (col d)
      (mulf (Host.gather gather_S50000x64_S850000x1_S850000x64_1_0_n_n_0_1_164 h (wrapCol s))
        (broadcastInDim S850000x64 ![0, 1] bcast_S850000x1_S850000x64_0_1
          (broadcastInDim S850000x1 ![0] bcast_S850000_S850000x1_0 nrm))))
    (broadcastInDim S50000x64 ![0, 1] bcast_S1x64_S50000x64_0_1 (broadcastInDim S1x64 ![1] bcast_S64_S1x64_1 b))

/-! ## The dense products, as sums over the contracted axis -/

/-- Row `r`, column `k` of a `[50000, 512]` matrix. -/
abbrev at512 (r : Fin 50000) (k : Fin 512) : S50000x512.Idx := fun a => match a with
  | ⟨0, _⟩ => ⟨r.val, r.isLt⟩
  | ⟨1, _⟩ => ⟨k.val, k.isLt⟩
/-- Row `k`, column `q` of a `[512, 256]` matrix. -/
abbrev atW1 (k : Fin 512) (q : Fin 256) : S512x256.Idx := fun a => match a with
  | ⟨0, _⟩ => ⟨k.val, k.isLt⟩
  | ⟨1, _⟩ => ⟨q.val, q.isLt⟩
/-- Row `r`, column `k` of a `[50000, 256]` matrix. -/
abbrev at256 (r : Fin 50000) (k : Fin 256) : S50000x256.Idx := fun a => match a with
  | ⟨0, _⟩ => ⟨r.val, r.isLt⟩
  | ⟨1, _⟩ => ⟨k.val, k.isLt⟩
/-- Row `k`, column `q` of a `[256, 64]` matrix. -/
abbrev atW2 (k : Fin 256) (q : Fin 64) : S256x64.Idx := fun a => match a with
  | ⟨0, _⟩ => ⟨k.val, k.isLt⟩
  | ⟨1, _⟩ => ⟨q.val, q.isLt⟩

/-- `(x · W₁)[r, q] = ∑ k, x[r, k] * W₁[k, q]` on the extended reals. -/
def dense1 (x : FVec Ideal S50000x512 .f32) (w : FVec Ideal S512x256 .f32) : FVec Ideal S50000x256 .f32 :=
  fun i => ∑ k : Fin 512, x (at512 (i 0) k) * w (atW1 k (i 1))

/-- `(h · W₂)[r, q] = ∑ k, h[r, k] * W₂[k, q]` on the extended reals. -/
def dense2 (h : FVec Ideal S50000x256 .f32) (w : FVec Ideal S256x64 .f32) : FVec Ideal S50000x64 .f32 :=
  fun i => ∑ k : Fin 256, h (at256 (i 0) k) * w (atW2 k (i 1))

/-- The hidden layer: `relu (layer₁ (x · W₁))`. -/
def hidden (x : FVec Ideal S50000x512 .f32) (e : IVec S2x800000 32) (w1 : FVec Ideal S512x256 .f32) (b1 : FVec Ideal S256 .f32) :
    FVec Ideal S50000x256 .f32 :=
  relu256 (conv256 (dense1 x w1) (srcIdx e) (dstIdx e) (edgeNorm (F := Ideal) (srcIdx e) (dstIdx e)) b1)

/-- The network: `layer₂ (hidden · W₂)`. -/
def gcn (x : FVec Ideal S50000x512 .f32) (e : IVec S2x800000 32) (w1 : FVec Ideal S512x256 .f32) (b1 : FVec Ideal S256 .f32)
    (w2 : FVec Ideal S256x64 .f32) (b2 : FVec Ideal S64 .f32) : FVec Ideal S50000x64 .f32 :=
  conv64 (dense2 (hidden x e w1 b1) w2) (srcIdx e) (dstIdx e) (edgeNorm (F := Ideal) (srcIdx e) (dstIdx e)) b2

end Cert.Gcn

end
-- ==== Proof.KernelDense.lean ====
/-
  The two dense layers as the kernel computes them. Each launch walks a grid of 25 points; point `t` loads rows
  `2000 t … 2000 t + 1999` of its left operand and the whole right operand, narrows both to bf16 (the identity on the
  extended reals), multiplies them on the matrix unit into a zero accumulator and writes the `[2000, n]` product back as
  rows `2000 t … 2000 t + 1999` of the output. A product computed row band by row band is the whole product: entry
  `(r, q)` is `∑ k, x[r, k] * w[k, q]` whichever band `r` falls in, and the 25 bands tile the 50000 rows. The contents
  the launch finds in its arrays are a parameter `V` here: the first launch reads argument arrays, the second one an
  array the host operations between the launches wrote.
-/
import proofs.«117685_j69836168233269_1_alg».proof.Proof.Gen.KernelIdeal.Frame
import proofs.«117685_j69836168233269_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense

open Idealize.ShloMosaic Idealize.ShloMosaic.TcCoe Idealize.SL.Sem
open Cert.KernelIdeal Cert.KernelIdeal.Gen Cert.KernelIdeal.Facts₀ Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Dense layer 1: what the first launch leaves in its output array -/

/-- Row `p`, column `k` of a `[2000, 512]` block. -/
abbrev blkRow512 (p : Fin 2000) (k : Fin 512) : S2000x512.Idx := fun a => match a with
  | ⟨0, _⟩ => ⟨p.val, p.isLt⟩
  | ⟨1, _⟩ => ⟨k.val, k.isLt⟩

theorem lhs0_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs0_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs0_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs0_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The body's one stored value at an index of the block: the two loaded blocks, narrowed to bf16 (the identity on
    the extended reals), multiplied into a zero accumulator — the sum over the contracted axis of the row of the
    left block times the column of the right one. -/
theorem pay0_apply (x0 : FVec Ideal S2000x512 .f32) (x1 : FVec Ideal S512x256 .f32) (j : S2000x256.Idx) :
    k0_pay1 (F := Ideal) x0 x1 j = ∑ k : Fin 512, x0 (blkRow512 (j 0) k) * x1 (atW1 k (j 1)) := by
  unfold k0_pay1
  refine (Ideal.matmul_constant_zero_apply dot_S2000x512_S512x256_S2000x256_1_0_0_1_n_n none _ _ j).trans ?_
  rw [← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = blkRow512 (j 0) k := funext fun a => Fin.ext (by
    match a with
    | ⟨0, _⟩ => exact lhs0_0 _ _
    | ⟨1, _⟩ => exact (lhs0_1 _ _).trans hk)
  have er : dot_S2000x512_S512x256_S2000x256_1_0_0_1_n_n.rhsIdx j ((ValueIdx.contrEquiv1 dot_S2000x512_S512x256_S2000x256_1_0_0_1_n_n 512 rfl rfl).symm k) = atW1 k (j 1) := funext fun a => Fin.ext (by
    match a with
    | ⟨0, _⟩ => exact (rhs0_0 _ _).trans hk
    | ⟨1, _⟩ => exact rhs0_1 _ _)
  rw [el, er]
  rfl

/-- The printed index maps over the grid: point `t` takes rows `2000 t … 2000 t + 1999` of the left operand and of the
    output, all their columns, and the whole right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row band is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

/-- Within row band `t`: the sum a point forms from its two blocks at a block index is the whole product's entry at the
    array index the block index stands for (a block's element sits at block index × block size + its coordinate). -/
theorem band0 (X : FVec Ideal S50000x512 .f32) (W : FVec Ideal S512x256 .f32) (t : Fin cfg0.N) (j : S2000x256.Idx) :
    ∑ k : Fin 512, X (((cfg0.win 0).blk t).view.emb (blkRow512 (j 0) k)) * W (((cfg0.win 1).blk t).view.emb (atW1 k (j 1)))
      = dense1 X W (((cfg0.win 2).blk t).view.emb j) := by
  obtain ⟨e0, e1, e2, e3, e4, e5⟩ := idx_facts0 t
  show _ = ∑ k : Fin 512, X (at512 ((((cfg0.win 2).blk t).view.emb j) 0) k) * W (atW1 k ((((cfg0.win 2).blk t).view.emb j) 1))
  refine Finset.sum_congr rfl fun k _ => ?_
  have hj0 : (j 0).val < 2000 := (j 0).isLt
  have hj1 : (j 1).val < 256 := (j 1).isLt
  have hk : k.val < 512 := k.isLt
  have h0 : ((cfg0.win 0).blk t).view.emb (blkRow512 (j 0) k) = at512 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (atW1 k (j 1)) = atW1 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [h0, h1]

/-- What point `t` writes back is block `t` of the product of the two operand arrays as the launch finds them. -/
theorem flushed0_eq (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  funext j
  refine (pay0_apply (iblk0 V c 0 t) (iblk0 V c 1 t) j).trans ?_
  exact band0 (V c main_arg0) (V c main_arg2) t j

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 row bands tile the output: row `r` is in the block of point `r / 2000`. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the launch the output array holds the whole product of the two operand arrays as the launch found them. -/
theorem final0 (c : Dev nD) : (dat0 V c).arrAt 2 cfg0.N = dense1 (V c main_arg0) (V c main_arg2) :=
  (dat0 V c).arrAt_eq_of_cover 2 (dense1 (V c main_arg0) (V c main_arg2)) (fun t _ => flushed0_eq V c t) (cover0)

/-! ## Dense layer 2: what the second launch leaves in its output array -/

/-- Row `p`, column `k` of a `[2000, 256]` block. -/
abbrev blkRow256 (p : Fin 2000) (k : Fin 256) : S2000x256.Idx := fun a => match a with
  | ⟨0, _⟩ => ⟨p.val, p.isLt⟩
  | ⟨1, _⟩ => ⟨k.val, k.isLt⟩

theorem lhs1_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs1_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs1_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs1_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The body's one stored value at an index of the block: the two loaded blocks, narrowed to bf16 (the identity on
    the extended reals), multiplied into a zero accumulator — the sum over the contracted axis of the row of the
    left block times the column of the right one. -/
theorem pay1_apply (x0 : FVec Ideal S2000x256 .f32) (x1 : FVec Ideal S256x64 .f32) (j : S2000x64.Idx) :
    k1_pay1 (F := Ideal) x0 x1 j = ∑ k : Fin 256, x0 (blkRow256 (j 0) k) * x1 (atW2 k (j 1)) := by
  unfold k1_pay1
  refine (Ideal.matmul_constant_zero_apply dot_S2000x256_S256x64_S2000x64_1_0_0_1_n_n none _ _ j).trans ?_
  rw [← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx j ((ValueIdx.contrEquiv1 dot_S2000x256_S256x64_S2000x64_1_0_0_1_n_n 256 rfl rfl).symm k) = blkRow256 (j 0) k := funext fun a => Fin.ext (by
    match a with
    | ⟨0, _⟩ => exact lhs1_0 _ _
    | ⟨1, _⟩ => exact (lhs1_1 _ _).trans hk)
  have er : dot_S2000x256_S256x64_S2000x64_1_0_0_1_n_n.rhsIdx j ((ValueIdx.contrEquiv1 dot_S2000x256_S256x64_S2000x64_1_0_0_1_n_n 256 rfl rfl).symm k) = atW2 k (j 1) := funext fun a => Fin.ext (by
    match a with
    | ⟨0, _⟩ => exact (rhs1_0 _ _).trans hk
    | ⟨1, _⟩ => exact rhs1_1 _ _)
  rw [el, er]
  show shapeCast S2000x256 x0 _ (blkRow256 (j 0) k) * x1 (atW2 k (j 1)) = _
  rw [shapeCast_self]

/-- The printed index maps over the grid: point `t` takes rows `2000 t … 2000 t + 1999` of the left operand and of the
    output, all their columns, and the whole right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row band is some point's. -/
theorem idx_onto1 : ∀ q0 : Fin 25, ∃ t : Fin cfg1.N, win1_2.index t = ![q0.val, 0] :=
  (by decide +kernel : ∀ q0 : Fin 25, ∃ t : Fin grid1.N, win1_2.index t = ![q0.val, 0])

/-- Within row band `t`: the sum a point forms from its two blocks at a block index is the whole product's entry at the
    array index the block index stands for (a block's element sits at block index × block size + its coordinate). -/
theorem band1 (X : FVec Ideal S50000x256 .f32) (W : FVec Ideal S256x64 .f32) (t : Fin cfg1.N) (j : S2000x64.Idx) :
    ∑ k : Fin 256, X (((cfg1.win 0).blk t).view.emb (blkRow256 (j 0) k)) * W (((cfg1.win 1).blk t).view.emb (atW2 k (j 1)))
      = dense2 X W (((cfg1.win 2).blk t).view.emb j) := by
  obtain ⟨e0, e1, e2, e3, e4, e5⟩ := idx_facts1 t
  show _ = ∑ k : Fin 256, X (at256 ((((cfg1.win 2).blk t).view.emb j) 0) k) * W (atW2 k ((((cfg1.win 2).blk t).view.emb j) 1))
  refine Finset.sum_congr rfl fun k _ => ?_
  have hj0 : (j 0).val < 2000 := (j 0).isLt
  have hj1 : (j 1).val < 64 := (j 1).isLt
  have hk : k.val < 256 := k.isLt
  have h0 : ((cfg1.win 0).blk t).view.emb (blkRow256 (j 0) k) = at256 ((((cfg1.win 2).blk t).view.emb j) 0) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have h1 : ((cfg1.win 1).blk t).view.emb (atW2 k (j 1)) = atW2 k ((((cfg1.win 2).blk t).view.emb j) 1) := by
    funext a; apply Fin.ext
    match a with
    | ⟨0, _⟩ => show win1_1.index t (0 : Fin 2) * 256 + 1 * k.val = k.val; omega
    | ⟨1, _⟩ => show win1_1.index t (1 : Fin 2) * 64 + 1 * (j 1).val = win1_2.index t (1 : Fin 2) * 64 + 1 * (j 1).val; omega
  rw [h0, h1]

/-- What point `t` writes back is block `t` of the product of the two operand arrays as the launch finds them. -/
theorem flushed1_eq (c : Dev nD) (t : Fin cfg1.N) :
    (dat1 V c).flushed 2 t = ((cfg1.win 2).blk t).view.read (Elt Ideal) (dense2 (V c main_v47) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x64) hz]
  funext j
  refine (pay1_apply (iblk1 V c 0 t) (iblk1 V c 1 t) j).trans ?_
  exact band1 (V c main_v47) (V c main_arg4) t j

/-- An index of the output array is in point `t`'s block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- The 25 row bands tile the output: row `r` is in the block of point `r / 2000`. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the launch the output array holds the whole product of the two operand arrays as the launch found them. -/
theorem final1 (c : Dev nD) : (dat1 V c).arrAt 2 cfg1.N = dense2 (V c main_v47) (V c main_arg4) :=
  (dat1 V c).arrAt_eq_of_cover 2 (dense2 (V c main_v47) (V c main_arg4)) (fun t _ => flushed1_eq V c t) (cover1)

end Cert.KernelIdeal.Dense

end
-- ==== Proof.KernelStretch.lean ====
/-
  The kernel's stretches of host operations, each read as ONE function of the buffers it starts from.
  Before the first launch: the edge list becomes the source and destination index vectors (self loops appended), the
  destinations' in-degrees, their inverse square roots, and the weight of every index pair. Between the launches: the
  first dense product is gathered along the sources, weighted, scatter-added along the destinations, biased and
  rectified. After the second launch: the same aggregation of the second dense product, without the rectifier.
  Each statement is over an arbitrary valuation `V` of the buffers, so that what was computed upstream is never
  opened; a buffer a stretch does not write passes through it unchanged. A value that several later operations read
  (which nodes have a positive in-degree, the in-degrees' inverse square roots) is stated at the stretch that computes it.
-/
import proofs.«117685_j69836168233269_1_alg».proof.Proof.Gen.KernelIdeal.Launch
import proofs.«117685_j69836168233269_1_alg».proof.Proof.Spec
import Idealize.ShloMosaic.Lib.StableHlo.Run

set_option maxRecDepth 16384

noncomputable section

namespace Cert.KernelIdeal.Stretch

open Idealize.ShloMosaic Idealize.ShloMosaic.TcCoe Idealize.SL.Sem
open Cert.KernelIdeal Cert.KernelIdeal.Gen Cert.KernelIdeal.Facts₀ Cert.Gcn

variable {F : FTy → Type} [FloatOps F]
variable (V : Valuation τ sig (Elt F))

/-! ## Before the first launch: indices and in-degrees -/

set_option maxHeartbeats 2000000 in
theorem idx_src : StableHlo.after hostOps0 V (Proc.devRef .tc main_v5) = srcIdx (V (Proc.devRef .tc main_arg1)) := by
  after_results; rfl
set_option maxHeartbeats 2000000 in
theorem idx_dst : StableHlo.after hostOps0 V (Proc.devRef .tc main_v6) = dstIdx (V (Proc.devRef .tc main_arg1)) := by
  after_results; rfl
set_option maxHeartbeats 4000000 in
/-- Which nodes have a positive in-degree. -/
theorem idx_pos : StableHlo.after hostOps0 V (Proc.devRef .tc main_v12)
    = cmpf (F := F) .ogt (degree (dstIdx (V (Proc.devRef .tc main_arg1)))) (broadcastInDim S50000 ![] Facts₀.bcast_S_S50000 (constant S_ .f32 0x00000000#32)) := by
  after_results; rfl
set_option maxHeartbeats 4000000 in
/-- The in-degrees' inverse square roots, wherever they make sense. -/
theorem idx_rsqrt : StableHlo.after hostOps0 V (Proc.devRef .tc main_v13) = Host.rsqrt (degree (F := F) (dstIdx (V (Proc.devRef .tc main_arg1)))) := by
  after_results; rfl
theorem idx_zero : StableHlo.after hostOps0 V (Proc.devRef .tc main_cst_2) = constant S_ .f32 0x00000000#32 := by
  after_results_simp
theorem idx_arg0 : StableHlo.after hostOps0 V (Proc.devRef .tc main_arg0) = V (Proc.devRef .tc main_arg0) := by
  after_results_simp
theorem idx_arg2 : StableHlo.after hostOps0 V (Proc.devRef .tc main_arg2) = V (Proc.devRef .tc main_arg2) := by
  after_results_simp
theorem idx_arg3 : StableHlo.after hostOps0 V (Proc.devRef .tc main_arg3) = V (Proc.devRef .tc main_arg3) := by
  after_results_simp
theorem idx_arg4 : StableHlo.after hostOps0 V (Proc.devRef .tc main_arg4) = V (Proc.devRef .tc main_arg4) := by
  after_results_simp
theorem idx_arg5 : StableHlo.after hostOps0 V (Proc.devRef .tc main_arg5) = V (Proc.devRef .tc main_arg5) := by
  after_results_simp

/-! ## Before the first launch: `deg > 0 ? deg^(-1/2) : 0` -/

theorem sel_dinv : StableHlo.after hostOps0_1 V (Proc.devRef .tc main_v14)
    = select (V (Proc.devRef .tc main_v12)) (V (Proc.devRef .tc main_v13)) (broadcastInDim S50000 ![] Facts₀.bcast_S_S50000 (id (V (Proc.devRef .tc main_cst_2)))) := by
  after_results_simp <;> rfl
theorem sel_v5 : StableHlo.after hostOps0_1 V (Proc.devRef .tc main_v5) = V (Proc.devRef .tc main_v5) := by
  after_results_simp
theorem sel_v6 : StableHlo.after hostOps0_1 V (Proc.devRef .tc main_v6) = V (Proc.devRef .tc main_v6) := by
  after_results_simp
theorem sel_arg0 : StableHlo.after hostOps0_1 V (Proc.devRef .tc main_arg0) = V (Proc.devRef .tc main_arg0) := by
  after_results_simp
theorem sel_arg2 : StableHlo.after hostOps0_1 V (Proc.devRef .tc main_arg2) = V (Proc.devRef .tc main_arg2) := by
  after_results_simp
theorem sel_arg3 : StableHlo.after hostOps0_1 V (Proc.devRef .tc main_arg3) = V (Proc.devRef .tc main_arg3) := by
  after_results_simp
theorem sel_arg4 : StableHlo.after hostOps0_1 V (Proc.devRef .tc main_arg4) = V (Proc.devRef .tc main_arg4) := by
  after_results_simp
theorem sel_arg5 : StableHlo.after hostOps0_1 V (Proc.devRef .tc main_arg5) = V (Proc.devRef .tc main_arg5) := by
  after_results_simp

/-! ## Before the first launch: the weight of every index pair -/

theorem wt_norm : StableHlo.after hostOps0_2 V (Proc.devRef .tc main_v29)
    = mulf (Host.gather gather_S50000_S850000x1_S850000_n_0_n_n_0_1_1 (V (Proc.devRef .tc main_v14)) (wrapCol (V (Proc.devRef .tc main_v5))))
        (Host.gather gather_S50000_S850000x1_S850000_n_0_n_n_0_1_1 (V (Proc.devRef .tc main_v14)) (wrapCol (V (Proc.devRef .tc main_v6)))) := by
  after_results_simp <;> rfl
theorem wt_v5 : StableHlo.after hostOps0_2 V (Proc.devRef .tc main_v5) = V (Proc.devRef .tc main_v5) := by
  after_results_simp
theorem wt_v6 : StableHlo.after hostOps0_2 V (Proc.devRef .tc main_v6) = V (Proc.devRef .tc main_v6) := by
  after_results_simp
theorem wt_arg0 : StableHlo.after hostOps0_2 V (Proc.devRef .tc main_arg0) = V (Proc.devRef .tc main_arg0) := by
  after_results_simp
theorem wt_arg2 : StableHlo.after hostOps0_2 V (Proc.devRef .tc main_arg2) = V (Proc.devRef .tc main_arg2) := by
  after_results_simp
theorem wt_arg3 : StableHlo.after hostOps0_2 V (Proc.devRef .tc main_arg3) = V (Proc.devRef .tc main_arg3) := by
  after_results_simp
theorem wt_arg4 : StableHlo.after hostOps0_2 V (Proc.devRef .tc main_arg4) = V (Proc.devRef .tc main_arg4) := by
  after_results_simp
theorem wt_arg5 : StableHlo.after hostOps0_2 V (Proc.devRef .tc main_arg5) = V (Proc.devRef .tc main_arg5) := by
  after_results_simp

/-! ## The three stretches before the first launch, composed -/

/-- The three stretches before the first launch, from contents `V`. -/
abbrev pre : Valuation τ sig (Elt F) := StableHlo.after hostOps0_2 (StableHlo.after hostOps0_1 (StableHlo.after hostOps0 V))

theorem pre_src : pre V (Proc.devRef .tc main_v5) = srcIdx (V (Proc.devRef .tc main_arg1)) := by
  unfold pre; rw [wt_v5, sel_v5, idx_src]
theorem pre_dst : pre V (Proc.devRef .tc main_v6) = dstIdx (V (Proc.devRef .tc main_arg1)) := by
  unfold pre; rw [wt_v6, sel_v6, idx_dst]
theorem pre_norm : pre V (Proc.devRef .tc main_v29) = edgeNorm (F := F) (srcIdx (V (Proc.devRef .tc main_arg1))) (dstIdx (V (Proc.devRef .tc main_arg1))) := by
  unfold pre
  rw [wt_norm, sel_dinv, sel_v5, sel_v6, idx_pos, idx_rsqrt, idx_zero, idx_src, idx_dst]
  rfl
theorem pre_arg0 : pre V (Proc.devRef .tc main_arg0) = V (Proc.devRef .tc main_arg0) := by
  unfold pre; rw [wt_arg0, sel_arg0, idx_arg0]
theorem pre_arg2 : pre V (Proc.devRef .tc main_arg2) = V (Proc.devRef .tc main_arg2) := by
  unfold pre; rw [wt_arg2, sel_arg2, idx_arg2]
theorem pre_arg3 : pre V (Proc.devRef .tc main_arg3) = V (Proc.devRef .tc main_arg3) := by
  unfold pre; rw [wt_arg3, sel_arg3, idx_arg3]
theorem pre_arg4 : pre V (Proc.devRef .tc main_arg4) = V (Proc.devRef .tc main_arg4) := by
  unfold pre; rw [wt_arg4, sel_arg4, idx_arg4]
theorem pre_arg5 : pre V (Proc.devRef .tc main_arg5) = V (Proc.devRef .tc main_arg5) := by
  unfold pre; rw [wt_arg5, sel_arg5, idx_arg5]

/-! ## Between the launches -/

theorem agg256 : StableHlo.after hostOps1 V (Proc.devRef .tc main_v46)
    = conv256 (V (Proc.devRef .tc main_v30)) (V (Proc.devRef .tc main_v5)) (V (Proc.devRef .tc main_v6)) (V (Proc.devRef .tc main_v29)) (V (Proc.devRef .tc main_arg3)) := by
  after_results_simp <;> rfl
theorem agg256_v5 : StableHlo.after hostOps1 V (Proc.devRef .tc main_v5) = V (Proc.devRef .tc main_v5) := by
  after_results_simp
theorem agg256_v6 : StableHlo.after hostOps1 V (Proc.devRef .tc main_v6) = V (Proc.devRef .tc main_v6) := by
  after_results_simp
theorem agg256_v29 : StableHlo.after hostOps1 V (Proc.devRef .tc main_v29) = V (Proc.devRef .tc main_v29) := by
  after_results_simp
theorem agg256_arg4 : StableHlo.after hostOps1 V (Proc.devRef .tc main_arg4) = V (Proc.devRef .tc main_arg4) := by
  after_results_simp
theorem agg256_arg5 : StableHlo.after hostOps1 V (Proc.devRef .tc main_arg5) = V (Proc.devRef .tc main_arg5) := by
  after_results_simp

theorem rect : StableHlo.after hostOps1_1 V (Proc.devRef .tc main_v47) = relu256 (V (Proc.devRef .tc main_v46)) := by
  after_results_simp <;> rfl
theorem rect_v5 : StableHlo.after hostOps1_1 V (Proc.devRef .tc main_v5) = V (Proc.devRef .tc main_v5) := by
  after_results_simp
theorem rect_v6 : StableHlo.after hostOps1_1 V (Proc.devRef .tc main_v6) = V (Proc.devRef .tc main_v6) := by
  after_results_simp
theorem rect_v29 : StableHlo.after hostOps1_1 V (Proc.devRef .tc main_v29) = V (Proc.devRef .tc main_v29) := by
  after_results_simp
theorem rect_arg4 : StableHlo.after hostOps1_1 V (Proc.devRef .tc main_arg4) = V (Proc.devRef .tc main_arg4) := by
  after_results_simp
theorem rect_arg5 : StableHlo.after hostOps1_1 V (Proc.devRef .tc main_arg5) = V (Proc.devRef .tc main_arg5) := by
  after_results_simp

/-- The two stretches between the launches, from contents `V`. -/
abbrev mid : Valuation τ sig (Elt F) := StableHlo.after hostOps1_1 (StableHlo.after hostOps1 V)

theorem mid_hidden : mid V (Proc.devRef .tc main_v47)
    = relu256 (conv256 (V (Proc.devRef .tc main_v30)) (V (Proc.devRef .tc main_v5)) (V (Proc.devRef .tc main_v6)) (V (Proc.devRef .tc main_v29)) (V (Proc.devRef .tc main_arg3))) := by
  unfold mid; rw [rect, agg256]
theorem mid_v5 : mid V (Proc.devRef .tc main_v5) = V (Proc.devRef .tc main_v5) := by
  unfold mid; rw [rect_v5, agg256_v5]
theorem mid_v6 : mid V (Proc.devRef .tc main_v6) = V (Proc.devRef .tc main_v6) := by
  unfold mid; rw [rect_v6, agg256_v6]
theorem mid_v29 : mid V (Proc.devRef .tc main_v29) = V (Proc.devRef .tc main_v29) := by
  unfold mid; rw [rect_v29, agg256_v29]
theorem mid_arg4 : mid V (Proc.devRef .tc main_arg4) = V (Proc.devRef .tc main_arg4) := by
  unfold mid; rw [rect_arg4, agg256_arg4]
theorem mid_arg5 : mid V (Proc.devRef .tc main_arg5) = V (Proc.devRef .tc main_arg5) := by
  unfold mid; rw [rect_arg5, agg256_arg5]

/-! ## After the second launch -/

theorem post_out : StableHlo.after hostOps2 V (Proc.devRef .tc main_v64)
    = conv64 (V (Proc.devRef .tc main_v48)) (V (Proc.devRef .tc main_v5)) (V (Proc.devRef .tc main_v6)) (V (Proc.devRef .tc main_v29)) (V (Proc.devRef .tc main_arg5)) := by
  after_results_simp <;> rfl

end Cert.KernelIdeal.Stretch

end
-- ==== Proof.KernelRun.lean ====
/-
  The kernel's whole run with its result named. The program is eight segments in a row: three stretches of host
  operations, the first launch, two stretches, the second launch, one last stretch. The library's theorem for such a
  program (`Pipeline.θ_run_regions_kit`) runs the segments from the launch memory and hands back, for every buffer that
  outlives a launch, its contents at the last segment boundary — the fold `Gen.W8` through the host stretches and the two
  launches' write-backs. The frame certificate reads only the six argument arrays off that final state; here the same
  run also keeps the result buffer's contents, `W8` at `main_v64`, for the value proof to open.
-/
import proofs.«117685_j69836168233269_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's @main terminates, nothing faulting,
    with the result buffer at the last boundary's contents and the six arguments as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.WholeRun

end
-- ==== Proof.KernelValue.lean ====
/-
  The kernel's result as the function of its arguments. The contents of the buffers at the segment boundaries are
  followed from the launch memory to the end: after the first stretches the index vectors and the pair weights are
  functions of the edge list; the first launch leaves `x · W₁` in its output array and touches nothing else; the
  stretches between the launches turn it into the hidden layer; the second launch leaves `hidden · W₂`; the last
  stretch aggregates it. Composed, the result buffer ends at `gcn` of the six argument arrays.
-/
import proofs.«117685_j69836168233269_1_alg».proof.Proof.KernelDense
import proofs.«117685_j69836168233269_1_alg».proof.Proof.KernelStretch
import proofs.«117685_j69836168233269_1_alg».proof.Proof.KernelRun

set_option maxRecDepth 16384

noncomputable section

namespace Cert.KernelIdeal.Whole

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg) (c : Dev nD)

/-! ## At the first launch's entry -/

theorem W3_v5 : W3 m ρ c (Proc.devRef .tc main_v5) = srcIdx (m ((c.tc : Thread nD τ).loc main_arg1)) := Stretch.pre_src (W0 m ρ c)
theorem W3_v6 : W3 m ρ c (Proc.devRef .tc main_v6) = dstIdx (m ((c.tc : Thread nD τ).loc main_arg1)) := Stretch.pre_dst (W0 m ρ c)
theorem W3_v29 : W3 m ρ c (Proc.devRef .tc main_v29) = edgeNorm (F := Ideal) (srcIdx (m ((c.tc : Thread nD τ).loc main_arg1))) (dstIdx (m ((c.tc : Thread nD τ).loc main_arg1))) :=
  Stretch.pre_norm (W0 m ρ c)
theorem W3_arg0 : W3 m ρ c (Proc.devRef .tc main_arg0) = (m ((c.tc : Thread nD τ).loc main_arg0)) := Stretch.pre_arg0 (W0 m ρ c)
theorem W3_arg2 : W3 m ρ c (Proc.devRef .tc main_arg2) = (m ((c.tc : Thread nD τ).loc main_arg2)) := Stretch.pre_arg2 (W0 m ρ c)
theorem W3_arg3 : W3 m ρ c (Proc.devRef .tc main_arg3) = (m ((c.tc : Thread nD τ).loc main_arg3)) := Stretch.pre_arg3 (W0 m ρ c)
theorem W3_arg4 : W3 m ρ c (Proc.devRef .tc main_arg4) = (m ((c.tc : Thread nD τ).loc main_arg4)) := Stretch.pre_arg4 (W0 m ρ c)
theorem W3_arg5 : W3 m ρ c (Proc.devRef .tc main_arg5) = (m ((c.tc : Thread nD τ).loc main_arg5)) := Stretch.pre_arg5 (W0 m ρ c)

/-! ## At the first launch's exit -/

theorem W4_v30 : W4 m ρ c (Proc.devRef .tc main_v30) = dense1 (m ((c.tc : Thread nD τ).loc main_arg0)) (m ((c.tc : Thread nD τ).loc main_arg2)) :=
  (W4_arr m ρ c 2).trans ((Dense.final0 (V3 m ρ) c).trans (congr (congrArg dense1 (W3_arg0 m ρ c)) (W3_arg2 m ρ c)))
theorem W4_v5 : W4 m ρ c (Proc.devRef .tc main_v5) = srcIdx (m ((c.tc : Thread nD τ).loc main_arg1)) := (W4_of_ne m ρ c main_v5 (by decide)).trans (W3_v5 m ρ c)
theorem W4_v6 : W4 m ρ c (Proc.devRef .tc main_v6) = dstIdx (m ((c.tc : Thread nD τ).loc main_arg1)) := (W4_of_ne m ρ c main_v6 (by decide)).trans (W3_v6 m ρ c)
theorem W4_v29 : W4 m ρ c (Proc.devRef .tc main_v29) = edgeNorm (F := Ideal) (srcIdx (m ((c.tc : Thread nD τ).loc main_arg1))) (dstIdx (m ((c.tc : Thread nD τ).loc main_arg1))) :=
  (W4_of_ne m ρ c main_v29 (by decide)).trans (W3_v29 m ρ c)
theorem W4_arg3 : W4 m ρ c (Proc.devRef .tc main_arg3) = (m ((c.tc : Thread nD τ).loc main_arg3)) := (W4_of_ne m ρ c main_arg3 (by decide)).trans (W3_arg3 m ρ c)
theorem W4_arg4 : W4 m ρ c (Proc.devRef .tc main_arg4) = (m ((c.tc : Thread nD τ).loc main_arg4)) := (W4_of_ne m ρ c main_arg4 (by decide)).trans (W3_arg4 m ρ c)
theorem W4_arg5 : W4 m ρ c (Proc.devRef .tc main_arg5) = (m ((c.tc : Thread nD τ).loc main_arg5)) := (W4_of_ne m ρ c main_arg5 (by decide)).trans (W3_arg5 m ρ c)

/-! ## At the second launch's entry -/

theorem W6_v47 : W6 m ρ c (Proc.devRef .tc main_v47) = hidden (m ((c.tc : Thread nD τ).loc main_arg0)) (m ((c.tc : Thread nD τ).loc main_arg1)) (m ((c.tc : Thread nD τ).loc main_arg2)) (m ((c.tc : Thread nD τ).loc main_arg3)) := by
  refine (Stretch.mid_hidden (W4 m ρ c)).trans ?_
  rw [W4_v30, W4_v5, W4_v6, W4_v29, W4_arg3]
  rfl
theorem W6_v5 : W6 m ρ c (Proc.devRef .tc main_v5) = srcIdx (m ((c.tc : Thread nD τ).loc main_arg1)) := (Stretch.mid_v5 (W4 m ρ c)).trans (W4_v5 m ρ c)
theorem W6_v6 : W6 m ρ c (Proc.devRef .tc main_v6) = dstIdx (m ((c.tc : Thread nD τ).loc main_arg1)) := (Stretch.mid_v6 (W4 m ρ c)).trans (W4_v6 m ρ c)
theorem W6_v29 : W6 m ρ c (Proc.devRef .tc main_v29) = edgeNorm (F := Ideal) (srcIdx (m ((c.tc : Thread nD τ).loc main_arg1))) (dstIdx (m ((c.tc : Thread nD τ).loc main_arg1))) :=
  (Stretch.mid_v29 (W4 m ρ c)).trans (W4_v29 m ρ c)
theorem W6_arg4 : W6 m ρ c (Proc.devRef .tc main_arg4) = (m ((c.tc : Thread nD τ).loc main_arg4)) := (Stretch.mid_arg4 (W4 m ρ c)).trans (W4_arg4 m ρ c)
theorem W6_arg5 : W6 m ρ c (Proc.devRef .tc main_arg5) = (m ((c.tc : Thread nD τ).loc main_arg5)) := (Stretch.mid_arg5 (W4 m ρ c)).trans (W4_arg5 m ρ c)

/-! ## At the second launch's exit -/

theorem W7_v48 : W7 m ρ c (Proc.devRef .tc main_v48)
    = dense2 (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (W7_arr m ρ c 2).trans ((Dense.final1 (V6 m ρ) c).trans (congr (congrArg dense2 (W6_v47 m ρ c)) (W6_arg4 m ρ c)))
theorem W7_v5 : W7 m ρ c (Proc.devRef .tc main_v5) = srcIdx (m ((c.tc : Thread nD τ).loc main_arg1)) := (W7_of_ne m ρ c main_v5 (by decide)).trans (W6_v5 m ρ c)
theorem W7_v6 : W7 m ρ c (Proc.devRef .tc main_v6) = dstIdx (m ((c.tc : Thread nD τ).loc main_arg1)) := (W7_of_ne m ρ c main_v6 (by decide)).trans (W6_v6 m ρ c)
theorem W7_v29 : W7 m ρ c (Proc.devRef .tc main_v29) = edgeNorm (F := Ideal) (srcIdx (m ((c.tc : Thread nD τ).loc main_arg1))) (dstIdx (m ((c.tc : Thread nD τ).loc main_arg1))) :=
  (W7_of_ne m ρ c main_v29 (by decide)).trans (W6_v29 m ρ c)
theorem W7_arg5 : W7 m ρ c (Proc.devRef .tc main_arg5) = (m ((c.tc : Thread nD τ).loc main_arg5)) := (W7_of_ne m ρ c main_arg5 (by decide)).trans (W6_arg5 m ρ c)

/-! ## At the end -/

/-- The result buffer's contents at the last boundary are `gcn` of the arguments. -/
theorem W8_v64 : W8 m ρ c (Proc.devRef .tc main_v64) = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Stretch.post_out (W7 m ρ c)).trans ?_
  rw [W7_v48, W7_v5, W7_v6, W7_v29, W7_arg5]
  rfl

/-- Every weakly fair execution of the idealized kernel ends with its result at `gcn` of its arguments, the
    arguments unchanged. -/
theorem run : θ_run (defs (F := Ideal)) (onTc (τ := τ) (main (F := Ideal))) ⟨m, fun _ => 0, ρ⟩ (fun r => ∀ c : Dev nD,
      r.2.mem ((c.tc : Thread nD τ).loc main_v64) = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_v64 m ρ c), (h c).2⟩) (WholeRun.run_result m ρ)

end Cert.KernelIdeal.Whole

end
-- ==== Proof.RefSplit.lean ====
/-
  The reference program's 119 host operations cut into six consecutive stretches, so that what the program
  leaves in a buffer can be read one stretch at a time:
    A1  the edge list's two rows, the first dense product, and the two index vectors with the self loops appended;
    A2  the degrees, their inverse square roots, and the edge weights;
    B   the first aggregation: gather, scale, scatter-add, bias, and the rectifier;
    C1  the second dense product, and the two index vectors formed a second time;
    C2  the degrees and edge weights computed a second time;
    D   the second aggregation and its bias.
  Running a list of operations that is an append is running the first part and then the second
  (`after_append`), and the whole list is the append of the six (`ops_split`, by unfolding the appends).
-/
import proofs.«117685_j69836168233269_1_alg».proof.Proof.RefOps

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

/-- The buffers after two lists of operations run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

variable {F : FTy → Type} [FloatOps F]

/-- Operations 1 – 8: the rows of the edge list, the first dense product, the index vectors. -/
abbrev opsA1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 9 – 41: the degrees and the edge weights. -/
abbrev opsA2 : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

/-- Operations 42 – 63: the first aggregation and the rectifier. -/
abbrev opsB : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- Operations 64 – 67: the second dense product; the index vectors again. -/
abbrev opsC1 : List (HloOp τ sig (Elt F)) :=
  [ binary main_v47 main_arg4 main_v48 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 68 – 100: the degrees and the edge weights again. -/
abbrev opsC2 : List (HloOp τ sig (Elt F)) :=
  [ nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)) ]

/-- Operations 101 – 119: the second aggregation. -/
abbrev opsD : List (HloOp τ sig (Elt F)) :=
  [ nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

set_option maxRecDepth 8192 in
/-- The program's operations are the six stretches in order. -/
theorem ops_split : (ops : List (HloOp τ sig (Elt F))) = opsA1 ++ (opsA2 ++ (opsB ++ (opsC1 ++ (opsC2 ++ opsD)))) := rfl

/-- What the whole program leaves is what the six stretches leave, one after the other. -/
theorem after_ops (V : Valuation τ sig (Elt F)) :
    after (ops : List (HloOp τ sig (Elt F))) V
      = after opsD (after opsC2 (after opsC1 (after opsB (after opsA2 (after opsA1 V))))) := by
  rw [ops_split, after_append, after_append, after_append, after_append, after_append]

end Cert.ReferenceIdeal.RefValue

end
-- ==== Proof.RefA.lean ====
/-
  What the first two stretches of the reference's operations leave, from ANY buffer contents `V`.
  Stretch A1 slices the edge list into its two rows, forms the first dense product, and appends the self loops
  `0 … 49999` to each row; stretch A2 scatters ones along the destinations to count degrees, takes
  `deg > 0 ? deg^(-1/2) : 0`, and multiplies its gathers at the sources and at the destinations. Each buffer a later
  stretch reads is the stated function of `V` at the stretch's inputs; a buffer the stretch does not write keeps
  its contents.
-/
import proofs.«117685_j69836168233269_1_alg».proof.Proof.RefSplit
import proofs.«117685_j69836168233269_1_alg».proof.Proof.Spec

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Row 0 of the edge list, as a vector of 800000 indices. -/
def row0 (e : IVec S2x800000 32) : IVec S800000 32 :=
  shapeCast S800000 (extractStridedSlice S1x800000 ![0, 0] e slices_S2x800000_S1x800000_0_0) shapeCasts_S1x800000_S800000
/-- Row 1 of the edge list. -/
def row1 (e : IVec S2x800000 32) : IVec S800000 32 :=
  shapeCast S800000 (extractStridedSlice S1x800000 ![1, 0] e slices_S2x800000_S1x800000_1_0) shapeCasts_S1x800000_S800000
/-- A row of the edge list followed by the nodes themselves: one self loop per node. -/
def withLoops (r : IVec S800000 32) : IVec S850000 32 :=
  concatenate S850000 0 [⟨S800000, r⟩, ⟨S50000, iotaInDim S50000 32 0⟩] concatenates_S800000_S50000_S850000_d0

/-- The source vector is row 0 with the self loops appended. -/
theorem srcIdx_eq (e : IVec S2x800000 32) : Cert.Gcn.srcIdx e = withLoops (row0 e) := rfl
/-- The destination vector is row 1 with the self loops appended. -/
theorem dstIdx_eq (e : IVec S2x800000 32) : Cert.Gcn.dstIdx e = withLoops (row1 e) := rfl

variable (V : Valuation τ sig (Elt F))

/-! ## Stretch A1 -/

theorem A1_v1 : after opsA1 V (Proc.devRef .tc main_v1) = row0 (V (Proc.devRef .tc main_arg1)) := by
  unfold opsA1; after_results <;> rfl
theorem A1_v3 : after opsA1 V (Proc.devRef .tc main_v3) = row1 (V (Proc.devRef .tc main_arg1)) := by
  unfold opsA1; after_results <;> rfl
theorem A1_v4 : after opsA1 V (Proc.devRef .tc main_v4)
    = Host.dotGeneral dot_S50000x512_S512x256_S50000x256_1_0_0_1_n_n none (V (Proc.devRef .tc main_arg0)) (V (Proc.devRef .tc main_arg2)) := by
  unfold opsA1; after_results <;> rfl
theorem A1_v6 : after opsA1 V (Proc.devRef .tc main_v6) = withLoops (row0 (V (Proc.devRef .tc main_arg1))) := by
  unfold opsA1; after_results <;> rfl
theorem A1_v7 : after opsA1 V (Proc.devRef .tc main_v7) = withLoops (row1 (V (Proc.devRef .tc main_arg1))) := by
  unfold opsA1; after_results <;> rfl
theorem A1_keeps_arg0 : after opsA1 V (Proc.devRef .tc main_arg0) = V (Proc.devRef .tc main_arg0) := by
  unfold opsA1; after_results_simp <;> rfl
theorem A1_keeps_arg1 : after opsA1 V (Proc.devRef .tc main_arg1) = V (Proc.devRef .tc main_arg1) := by
  unfold opsA1; after_results_simp <;> rfl
theorem A1_keeps_arg2 : after opsA1 V (Proc.devRef .tc main_arg2) = V (Proc.devRef .tc main_arg2) := by
  unfold opsA1; after_results_simp <;> rfl
theorem A1_keeps_arg3 : after opsA1 V (Proc.devRef .tc main_arg3) = V (Proc.devRef .tc main_arg3) := by
  unfold opsA1; after_results_simp <;> rfl
theorem A1_keeps_arg4 : after opsA1 V (Proc.devRef .tc main_arg4) = V (Proc.devRef .tc main_arg4) := by
  unfold opsA1; after_results_simp <;> rfl
theorem A1_keeps_arg5 : after opsA1 V (Proc.devRef .tc main_arg5) = V (Proc.devRef .tc main_arg5) := by
  unfold opsA1; after_results_simp <;> rfl

/-! ## Stretch A2 -/

theorem A2_v30 : after opsA2 V (Proc.devRef .tc main_v30) = Cert.Gcn.edgeNorm (V (Proc.devRef .tc main_v6)) (V (Proc.devRef .tc main_v7)) := by
  unfold opsA2; after_results_simp <;> rfl
theorem A2_keeps_v1 : after opsA2 V (Proc.devRef .tc main_v1) = V (Proc.devRef .tc main_v1) := by
  unfold opsA2; after_results_simp <;> rfl
theorem A2_keeps_v3 : after opsA2 V (Proc.devRef .tc main_v3) = V (Proc.devRef .tc main_v3) := by
  unfold opsA2; after_results_simp <;> rfl
theorem A2_keeps_v4 : after opsA2 V (Proc.devRef .tc main_v4) = V (Proc.devRef .tc main_v4) := by
  unfold opsA2; after_results_simp <;> rfl
theorem A2_keeps_v6 : after opsA2 V (Proc.devRef .tc main_v6) = V (Proc.devRef .tc main_v6) := by
  unfold opsA2; after_results_simp <;> rfl
theorem A2_keeps_v7 : after opsA2 V (Proc.devRef .tc main_v7) = V (Proc.devRef .tc main_v7) := by
  unfold opsA2; after_results_simp <;> rfl
theorem A2_keeps_arg0 : after opsA2 V (Proc.devRef .tc main_arg0) = V (Proc.devRef .tc main_arg0) := by
  unfold opsA2; after_results_simp <;> rfl
theorem A2_keeps_arg1 : after opsA2 V (Proc.devRef .tc main_arg1) = V (Proc.devRef .tc main_arg1) := by
  unfold opsA2; after_results_simp <;> rfl
theorem A2_keeps_arg2 : after opsA2 V (Proc.devRef .tc main_arg2) = V (Proc.devRef .tc main_arg2) := by
  unfold opsA2; after_results_simp <;> rfl
theorem A2_keeps_arg3 : after opsA2 V (Proc.devRef .tc main_arg3) = V (Proc.devRef .tc main_arg3) := by
  unfold opsA2; after_results_simp <;> rfl
theorem A2_keeps_arg4 : after opsA2 V (Proc.devRef .tc main_arg4) = V (Proc.devRef .tc main_arg4) := by
  unfold opsA2; after_results_simp <;> rfl
theorem A2_keeps_arg5 : after opsA2 V (Proc.devRef .tc main_arg5) = V (Proc.devRef .tc main_arg5) := by
  unfold opsA2; after_results_simp <;> rfl

end Cert.ReferenceIdeal.RefValue

end
-- ==== Proof.RefB.lean ====
/-
  What the third stretch of the reference's operations leaves, from ANY buffer contents `V`: the first
  aggregation. It wraps negative source indices, gathers the source rows of the dense product, scales each by its
  edge weight, scatter-adds onto the destination rows starting from zero, adds the bias, and takes the maximum
  with zero. A buffer the stretch does not write keeps its contents.
-/
import proofs.«117685_j69836168233269_1_alg».proof.Proof.RefSplit
import proofs.«117685_j69836168233269_1_alg».proof.Proof.Spec

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

variable (V : Valuation τ sig (Elt F))

theorem B_v47 : after opsB V (Proc.devRef .tc main_v47)
    = Cert.Gcn.relu256 (Cert.Gcn.conv256 (V (Proc.devRef .tc main_v4)) (V (Proc.devRef .tc main_v6)) (V (Proc.devRef .tc main_v7)) (V (Proc.devRef .tc main_v30)) (V (Proc.devRef .tc main_arg3))) := by
  unfold opsB; after_results_simp <;> rfl
theorem B_keeps_v1 : after opsB V (Proc.devRef .tc main_v1) = V (Proc.devRef .tc main_v1) := by
  unfold opsB; after_results_simp <;> rfl
theorem B_keeps_v3 : after opsB V (Proc.devRef .tc main_v3) = V (Proc.devRef .tc main_v3) := by
  unfold opsB; after_results_simp <;> rfl
theorem B_keeps_arg0 : after opsB V (Proc.devRef .tc main_arg0) = V (Proc.devRef .tc main_arg0) := by
  unfold opsB; after_results_simp <;> rfl
theorem B_keeps_arg1 : after opsB V (Proc.devRef .tc main_arg1) = V (Proc.devRef .tc main_arg1) := by
  unfold opsB; after_results_simp <;> rfl
theorem B_keeps_arg2 : after opsB V (Proc.devRef .tc main_arg2) = V (Proc.devRef .tc main_arg2) := by
  unfold opsB; after_results_simp <;> rfl
theorem B_keeps_arg3 : after opsB V (Proc.devRef .tc main_arg3) = V (Proc.devRef .tc main_arg3) := by
  unfold opsB; after_results_simp <;> rfl
theorem B_keeps_arg4 : after opsB V (Proc.devRef .tc main_arg4) = V (Proc.devRef .tc main_arg4) := by
  unfold opsB; after_results_simp <;> rfl
theorem B_keeps_arg5 : after opsB V (Proc.devRef .tc main_arg5) = V (Proc.devRef .tc main_arg5) := by
  unfold opsB; after_results_simp <;> rfl

end Cert.ReferenceIdeal.RefValue

end
-- ==== Proof.RefC.lean ====
/-
  What the fourth and fifth stretches of the reference's operations leave, from ANY buffer contents `V`.
  Stretch C1 forms the second dense product and appends the self loops to the two rows of the edge list a second
  time; stretch C2 computes the degrees, their inverse square roots and the edge weights a second time, by the
  same operations as the first time. A buffer a stretch does not write keeps its contents.
-/
import proofs.«117685_j69836168233269_1_alg».proof.Proof.RefA

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

variable (V : Valuation τ sig (Elt F))

/-! ## Stretch C1 -/

theorem C1_v48 : after opsC1 V (Proc.devRef .tc main_v48)
    = Host.dotGeneral dot_S50000x256_S256x64_S50000x64_1_0_0_1_n_n none (V (Proc.devRef .tc main_v47)) (V (Proc.devRef .tc main_arg4)) := by
  unfold opsC1; after_results <;> rfl
theorem C1_v50 : after opsC1 V (Proc.devRef .tc main_v50) = withLoops (V (Proc.devRef .tc main_v1)) := by
  unfold opsC1; after_results <;> rfl
theorem C1_v51 : after opsC1 V (Proc.devRef .tc main_v51) = withLoops (V (Proc.devRef .tc main_v3)) := by
  unfold opsC1; after_results <;> rfl
theorem C1_keeps_arg0 : after opsC1 V (Proc.devRef .tc main_arg0) = V (Proc.devRef .tc main_arg0) := by
  unfold opsC1; after_results_simp <;> rfl
theorem C1_keeps_arg1 : after opsC1 V (Proc.devRef .tc main_arg1) = V (Proc.devRef .tc main_arg1) := by
  unfold opsC1; after_results_simp <;> rfl
theorem C1_keeps_arg2 : after opsC1 V (Proc.devRef .tc main_arg2) = V (Proc.devRef .tc main_arg2) := by
  unfold opsC1; after_results_simp <;> rfl
theorem C1_keeps_arg3 : after opsC1 V (Proc.devRef .tc main_arg3) = V (Proc.devRef .tc main_arg3) := by
  unfold opsC1; after_results_simp <;> rfl
theorem C1_keeps_arg4 : after opsC1 V (Proc.devRef .tc main_arg4) = V (Proc.devRef .tc main_arg4) := by
  unfold opsC1; after_results_simp <;> rfl
theorem C1_keeps_arg5 : after opsC1 V (Proc.devRef .tc main_arg5) = V (Proc.devRef .tc main_arg5) := by
  unfold opsC1; after_results_simp <;> rfl

/-! ## Stretch C2 -/

theorem C2_v74 : after opsC2 V (Proc.devRef .tc main_v74) = Cert.Gcn.edgeNorm (V (Proc.devRef .tc main_v50)) (V (Proc.devRef .tc main_v51)) := by
  unfold opsC2; after_results_simp <;> rfl
theorem C2_keeps_v48 : after opsC2 V (Proc.devRef .tc main_v48) = V (Proc.devRef .tc main_v48) := by
  unfold opsC2; after_results_simp <;> rfl
theorem C2_keeps_v50 : after opsC2 V (Proc.devRef .tc main_v50) = V (Proc.devRef .tc main_v50) := by
  unfold opsC2; after_results_simp <;> rfl
theorem C2_keeps_v51 : after opsC2 V (Proc.devRef .tc main_v51) = V (Proc.devRef .tc main_v51) := by
  unfold opsC2; after_results_simp <;> rfl
theorem C2_keeps_arg0 : after opsC2 V (Proc.devRef .tc main_arg0) = V (Proc.devRef .tc main_arg0) := by
  unfold opsC2; after_results_simp <;> rfl
theorem C2_keeps_arg1 : after opsC2 V (Proc.devRef .tc main_arg1) = V (Proc.devRef .tc main_arg1) := by
  unfold opsC2; after_results_simp <;> rfl
theorem C2_keeps_arg2 : after opsC2 V (Proc.devRef .tc main_arg2) = V (Proc.devRef .tc main_arg2) := by
  unfold opsC2; after_results_simp <;> rfl
theorem C2_keeps_arg3 : after opsC2 V (Proc.devRef .tc main_arg3) = V (Proc.devRef .tc main_arg3) := by
  unfold opsC2; after_results_simp <;> rfl
theorem C2_keeps_arg4 : after opsC2 V (Proc.devRef .tc main_arg4) = V (Proc.devRef .tc main_arg4) := by
  unfold opsC2; after_results_simp <;> rfl
theorem C2_keeps_arg5 : after opsC2 V (Proc.devRef .tc main_arg5) = V (Proc.devRef .tc main_arg5) := by
  unfold opsC2; after_results_simp <;> rfl

end Cert.ReferenceIdeal.RefValue

end
-- ==== Proof.RefD.lean ====
/-
  What the last stretch of the reference's operations leaves, from ANY buffer contents `V`: the second
  aggregation, over 64 features — gather the source rows of the second dense product, scale by the edge weights,
  scatter-add onto the destination rows from zero, add the bias. The arguments keep their contents.
-/
import proofs.«117685_j69836168233269_1_alg».proof.Proof.RefSplit
import proofs.«117685_j69836168233269_1_alg».proof.Proof.Spec

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

variable (V : Valuation τ sig (Elt F))

theorem D_v90 : after opsD V (Proc.devRef .tc main_v90)
    = Cert.Gcn.conv64 (V (Proc.devRef .tc main_v48)) (V (Proc.devRef .tc main_v50)) (V (Proc.devRef .tc main_v51)) (V (Proc.devRef .tc main_v74)) (V (Proc.devRef .tc main_arg5)) := by
  unfold opsD; after_results_simp <;> rfl
theorem D_keeps_arg0 : after opsD V (Proc.devRef .tc main_arg0) = V (Proc.devRef .tc main_arg0) := by
  unfold opsD; after_results_simp <;> rfl
theorem D_keeps_arg1 : after opsD V (Proc.devRef .tc main_arg1) = V (Proc.devRef .tc main_arg1) := by
  unfold opsD; after_results_simp <;> rfl
theorem D_keeps_arg2 : after opsD V (Proc.devRef .tc main_arg2) = V (Proc.devRef .tc main_arg2) := by
  unfold opsD; after_results_simp <;> rfl
theorem D_keeps_arg3 : after opsD V (Proc.devRef .tc main_arg3) = V (Proc.devRef .tc main_arg3) := by
  unfold opsD; after_results_simp <;> rfl
theorem D_keeps_arg4 : after opsD V (Proc.devRef .tc main_arg4) = V (Proc.devRef .tc main_arg4) := by
  unfold opsD; after_results_simp <;> rfl
theorem D_keeps_arg5 : after opsD V (Proc.devRef .tc main_arg5) = V (Proc.devRef .tc main_arg5) := by
  unfold opsD; after_results_simp <;> rfl

end Cert.ReferenceIdeal.RefValue

end
-- ==== Proof.RefDot.lean ====
/-
  The reference's two dense products on the extended reals. There the host's `dot_general` of two matrices is
  the plain sum over the contracted axis, `(x · w)[r, q] = ∑ k, x[r, k] * w[k, q]`: the general contraction's index
  set has a single axis here, which is re-indexed by `Fin 512` (first product) and `Fin 256` (second), and the
  operand indices at output index `(r, q)` and contraction index `k` are `(r, k)` and `(k, q)`.
-/
import proofs.«117685_j69836168233269_1_alg».proof.Proof.Gen.ReferenceIdeal
import proofs.«117685_j69836168233269_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic

/-! ## The first dense product -/

theorem lhs1_0 (i : S50000x256.Idx) (q : dot_S50000x512_S512x256_S50000x256_1_0_0_1_n_n.contr.Idx) :
    (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch by decide), dif_pos (show (0 : Fin S50000x512.rank) ∈ dot_S50000x512_S512x256_S50000x256_1_0_0_1_n_n.lhsNonContracting by decide)]
  rfl
theorem lhs1_1 (i : S50000x256.Idx) (q : dot_S50000x512_S512x256_S50000x256_1_0_0_1_n_n.contr.Idx) :
    (dot_S50000x512_S512x256_S50000x256_1_0_0_1_n_n.lhsIdx i q 1).val = (q ⟨0, by decide⟩).val :=
  dot_S50000x512_S512x256_S50000x256_1_0_0_1_n_n.lhsIdx_val_of_single rfl i q
theorem rhs1_0 (i : S50000x256.Idx) (q : dot_S50000x512_S512x256_S50000x256_1_0_0_1_n_n.contr.Idx) :
    (dot_S50000x512_S512x256_S50000x256_1_0_0_1_n_n.rhsIdx i q 0).val = (q ⟨0, by decide⟩).val :=
  dot_S50000x512_S512x256_S50000x256_1_0_0_1_n_n.rhsIdx_val_of_single rfl i q
theorem rhs1_1 (i : S50000x256.Idx) (q : dot_S50000x512_S512x256_S50000x256_1_0_0_1_n_n.contr.Idx) :
    (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch by decide), dif_pos (show (1 : Fin S512x256.rank) ∈ dot_S50000x512_S512x256_S50000x256_1_0_0_1_n_n.rhsNonContracting by decide)]
  rfl

/-- On the extended reals the host's product of a `[50000, 512]` by a `[512, ·]` matrix is, entry by entry, the sum over
    the contracted axis: the contraction index has one coordinate, which ranges over `Fin 512`. -/
theorem dot1_eq (x : FVec Ideal S50000x512 .f32) (w : FVec Ideal S512x256 .f32) :
    Host.dotGeneral dot_S50000x512_S512x256_S50000x256_1_0_0_1_n_n none x w = Cert.Gcn.dense1 x w := by
  funext i
  show Host.dotGeneral dot_S50000x512_S512x256_S50000x256_1_0_0_1_n_n none x w i = ∑ k : Fin 512, x (Cert.Gcn.at512 (i 0) k) * w (Cert.Gcn.atW1 k (i 1))
  simp only [Host.dotGeneral]
  rw [Ideal.dotGeneral_apply, ← Equiv.sum_comp (ValueIdx.contrEquiv1 dot_S50000x512_S512x256_S50000x256_1_0_0_1_n_n 512 rfl rfl).symm]
  refine Finset.sum_congr rfl fun k _ => ?_
  have hk := ValueIdx.contrEquiv1_symm_val dot_S50000x512_S512x256_S50000x256_1_0_0_1_n_n 512 rfl rfl k
  have el : dot_S50000x512_S512x256_S50000x256_1_0_0_1_n_n.lhsIdx i ((ValueIdx.contrEquiv1 dot_S50000x512_S512x256_S50000x256_1_0_0_1_n_n 512 rfl rfl).symm k) = Cert.Gcn.at512 (i 0) k := funext fun a => Fin.ext (by
    match a with
    | ⟨0, _⟩ => exact lhs1_0 _ _
    | ⟨1, _⟩ => exact (lhs1_1 _ _).trans hk)
  have er : dot_S50000x512_S512x256_S50000x256_1_0_0_1_n_n.rhsIdx i ((ValueIdx.contrEquiv1 dot_S50000x512_S512x256_S50000x256_1_0_0_1_n_n 512 rfl rfl).symm k) = Cert.Gcn.atW1 k (i 1) := funext fun a => Fin.ext (by
    match a with
    | ⟨0, _⟩ => exact (rhs1_0 _ _).trans hk
    | ⟨1, _⟩ => exact rhs1_1 _ _)
  rw [el, er]

/-! ## The second dense product -/

theorem lhs2_0 (i : S50000x64.Idx) (q : dot_S50000x256_S256x64_S50000x64_1_0_0_1_n_n.contr.Idx) :
    (dot_S50000x256_S256x64_S50000x64_1_0_0_1_n_n.lhsIdx i q 0).val = (i 0).val := by
  unfold DotDims.lhsIdx
  rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
  rfl
theorem lhs2_1 (i : S50000x64.Idx) (q : dot_S50000x256_S256x64_S50000x64_1_0_0_1_n_n.contr.Idx) :
    (dot_S50000x256_S256x64_S50000x64_1_0_0_1_n_n.lhsIdx i q 1).val = (q ⟨0, by decide⟩).val :=
  dot_S50000x256_S256x64_S50000x64_1_0_0_1_n_n.lhsIdx_val_of_single rfl i q
theorem rhs2_0 (i : S50000x64.Idx) (q : dot_S50000x256_S256x64_S50000x64_1_0_0_1_n_n.contr.Idx) :
    (dot_S50000x256_S256x64_S50000x64_1_0_0_1_n_n.rhsIdx i q 0).val = (q ⟨0, by decide⟩).val :=
  dot_S50000x256_S256x64_S50000x64_1_0_0_1_n_n.rhsIdx_val_of_single rfl i q
theorem rhs2_1 (i : S50000x64.Idx) (q : dot_S50000x256_S256x64_S50000x64_1_0_0_1_n_n.contr.Idx) :
    (dot_S50000x256_S256x64_S50000x64_1_0_0_1_n_n.rhsIdx i q 1).val = (i 1).val := by
  unfold DotDims.rhsIdx
  rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
  rfl

/-- On the extended reals the host's product of a `[50000, 256]` by a `[256, ·]` matrix is, entry by entry, the sum over
    the contracted axis: the contraction index has one coordinate, which ranges over `Fin 256`. -/
theorem dot2_eq (x : FVec Ideal S50000x256 .f32) (w : FVec Ideal S256x64 .f32) :
    Host.dotGeneral dot_S50000x256_S256x64_S50000x64_1_0_0_1_n_n none x w = Cert.Gcn.dense2 x w := by
  funext i
  show Host.dotGeneral dot_S50000x256_S256x64_S50000x64_1_0_0_1_n_n none x w i = ∑ k : Fin 256, x (Cert.Gcn.at256 (i 0) k) * w (Cert.Gcn.atW2 k (i 1))
  simp only [Host.dotGeneral]
  rw [Ideal.dotGeneral_apply, ← Equiv.sum_comp (ValueIdx.contrEquiv1 dot_S50000x256_S256x64_S50000x64_1_0_0_1_n_n 256 rfl rfl).symm]
  refine Finset.sum_congr rfl fun k _ => ?_
  have hk := ValueIdx.contrEquiv1_symm_val dot_S50000x256_S256x64_S50000x64_1_0_0_1_n_n 256 rfl rfl k
  have el : dot_S50000x256_S256x64_S50000x64_1_0_0_1_n_n.lhsIdx i ((ValueIdx.contrEquiv1 dot_S50000x256_S256x64_S50000x64_1_0_0_1_n_n 256 rfl rfl).symm k) = Cert.Gcn.at256 (i 0) k := funext fun a => Fin.ext (by
    match a with
    | ⟨0, _⟩ => exact lhs2_0 _ _
    | ⟨1, _⟩ => exact (lhs2_1 _ _).trans hk)
  have er : dot_S50000x256_S256x64_S50000x64_1_0_0_1_n_n.rhsIdx i ((ValueIdx.contrEquiv1 dot_S50000x256_S256x64_S50000x64_1_0_0_1_n_n 256 rfl rfl).symm k) = Cert.Gcn.atW2 k (i 1) := funext fun a => Fin.ext (by
    match a with
    | ⟨0, _⟩ => exact (rhs2_0 _ _).trans hk
    | ⟨1, _⟩ => exact rhs2_1 _ _)
  rw [el, er]

end Cert.ReferenceIdeal.RefValue

end
-- ==== Proof.RefRun.lean ====
/-
  The reference program's run, read back against the common function. Every weakly fair execution of the
  reference terminates with each buffer at what its 119 operations leave from the launch contents; reading that
  one stretch at a time — each stretch's result is a function of the buffers the stretch reads, and those are what
  the earlier stretches left — the result buffer holds the two-layer graph convolution of the six arguments:
  the index vectors and edge weights the program computes a second time are the same functions of the same edge
  list as the first time, and on the extended reals each host dense product is the plain sum over the contracted
  axis. The six arguments are not written.
-/
import proofs.«117685_j69836168233269_1_alg».proof.Proof.RefA
import proofs.«117685_j69836168233269_1_alg».proof.Proof.RefB
import proofs.«117685_j69836168233269_1_alg».proof.Proof.RefC
import proofs.«117685_j69836168233269_1_alg».proof.Proof.RefD
import proofs.«117685_j69836168233269_1_alg».proof.Proof.RefDot

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

/-! ## The arguments are not written -/

section Args
variable {F : FTy → Type} [FloatOps F] (V : Valuation τ sig (Elt F))
theorem after_ops_arg0 : after (ops : List (HloOp τ sig (Elt F))) V (Proc.devRef .tc main_arg0) = V (Proc.devRef .tc main_arg0) := by
  rw [after_ops, D_keeps_arg0, C2_keeps_arg0, C1_keeps_arg0, B_keeps_arg0, A2_keeps_arg0, A1_keeps_arg0]
theorem after_ops_arg1 : after (ops : List (HloOp τ sig (Elt F))) V (Proc.devRef .tc main_arg1) = V (Proc.devRef .tc main_arg1) := by
  rw [after_ops, D_keeps_arg1, C2_keeps_arg1, C1_keeps_arg1, B_keeps_arg1, A2_keeps_arg1, A1_keeps_arg1]
theorem after_ops_arg2 : after (ops : List (HloOp τ sig (Elt F))) V (Proc.devRef .tc main_arg2) = V (Proc.devRef .tc main_arg2) := by
  rw [after_ops, D_keeps_arg2, C2_keeps_arg2, C1_keeps_arg2, B_keeps_arg2, A2_keeps_arg2, A1_keeps_arg2]
theorem after_ops_arg3 : after (ops : List (HloOp τ sig (Elt F))) V (Proc.devRef .tc main_arg3) = V (Proc.devRef .tc main_arg3) := by
  rw [after_ops, D_keeps_arg3, C2_keeps_arg3, C1_keeps_arg3, B_keeps_arg3, A2_keeps_arg3, A1_keeps_arg3]
theorem after_ops_arg4 : after (ops : List (HloOp τ sig (Elt F))) V (Proc.devRef .tc main_arg4) = V (Proc.devRef .tc main_arg4) := by
  rw [after_ops, D_keeps_arg4, C2_keeps_arg4, C1_keeps_arg4, B_keeps_arg4, A2_keeps_arg4, A1_keeps_arg4]
theorem after_ops_arg5 : after (ops : List (HloOp τ sig (Elt F))) V (Proc.devRef .tc main_arg5) = V (Proc.devRef .tc main_arg5) := by
  rw [after_ops, D_keeps_arg5, C2_keeps_arg5, C1_keeps_arg5, B_keeps_arg5, A2_keeps_arg5, A1_keeps_arg5]
end Args

/-! ## The result -/

/-- After all the operations, from any contents, the result buffer holds the network applied to the contents of
    the six argument buffers. -/
theorem after_ops_v90 (V : Valuation τ sig (Elt Ideal)) :
    after (ops : List (HloOp τ sig (Elt Ideal))) V (Proc.devRef .tc main_v90)
      = Cert.Gcn.gcn (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [after_ops, D_v90]
  -- the second aggregation's inputs, as the fifth and fourth stretches left them
  rw [C2_v74, C2_keeps_v48, C2_keeps_v50, C2_keeps_v51, C2_keeps_arg5, C1_v48, C1_v50, C1_v51, C1_keeps_arg5]
  -- the hidden layer and the two rows of the edge list, as the first three stretches left them
  rw [B_v47, B_keeps_v1, B_keeps_v3, B_keeps_arg5, B_keeps_arg4]
  rw [A2_v30, A2_keeps_v1, A2_keeps_v3, A2_keeps_v4, A2_keeps_v6, A2_keeps_v7, A2_keeps_arg3, A2_keeps_arg4, A2_keeps_arg5]
  rw [A1_v1, A1_v3, A1_v4, A1_v6, A1_v7, A1_keeps_arg3, A1_keeps_arg4, A1_keeps_arg5]
  -- the dense products as sums, the index vectors by their names
  rw [dot1_eq, dot2_eq, ← srcIdx_eq, ← dstIdx_eq]
  rfl

/-! ## The run -/

/-- On every device, from any memory with zero counters: every weakly fair execution of the reference terminates
    with the result buffer at the network applied to the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v90)
        = Cert.Gcn.gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v90).trans (after_ops_v90 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c))⟩)
    (run_seq scopedRefs_eq scopedSems_eq defs main (fun _ => ops) main_eq (fun _ => ops_sub) m ρ)

end Cert.ReferenceIdeal.RefValue

end
-- ==== Proof.lean ====
/-
  A two-layer graph convolution, as a Pallas program and as plain jnp, are one function on the extended reals.

  Both programs compute, from node features `x`, an edge list, and two weight matrices with their biases,
  `layer₂ (relu (layer₁ (x · W₁)) · W₂)`, where a layer gathers each edge's source row, scales it by
  `dinv[src] * dinv[dst]` (`dinv = deg > 0 ? deg^(-1/2) : 0`, self loops included), scatter-adds it onto the edge's
  destination row and adds the bias (`Cert.Gcn.gcn`, Proof/Spec.lean). They differ in two ways only. The kernel
  forms each dense product on the matrix unit, 2000 rows at a time over a grid of 25 points, from operands narrowed
  to bf16; on the extended reals narrowing is the identity and a product formed row band by row band is the whole
  product, entry `(r, q)` being `∑ k, x[r, k] * w[k, q]` either way (Proof/KernelDense.lean for the kernel,
  Proof/RefDot.lean for the host's `dot_general`). And the reference derives the index vectors and the edge weights
  a second time for the second layer, by the same operations on the same edge list. Everything else is the same
  host operations on the same values, which both sides carry as the same opaque functions; no law of arithmetic
  beyond re-indexing a finite sum is used, so the finiteness of the inputs is never opened.

  The three frame claims: the two kernel programs' by the launch-by-launch frame certificates, the reference's
  by its run with the result dropped. The idealization rewrote nothing, so `preserves` is trivial. For `algebraic`,
  the kernel's run ends with its result at `gcn` of its arguments (Proof/KernelValue.lean) and the reference's at
  `gcn` of its own (Proof/RefRun.lean), and the two argument lists agree.
-/
import proofs.«117685_j69836168233269_1_alg».proof.Defs
import proofs.«117685_j69836168233269_1_alg».proof.Proof.Gen.Kernel
import proofs.«117685_j69836168233269_1_alg».proof.Proof.Gen.Kernel.Frame
import proofs.«117685_j69836168233269_1_alg».proof.Proof.Gen.KernelIdeal
import proofs.«117685_j69836168233269_1_alg».proof.Proof.Gen.KernelIdeal.Frame
import proofs.«117685_j69836168233269_1_alg».proof.Proof.Gen.ReferenceIdeal
import proofs.«117685_j69836168233269_1_alg».proof.Proof.Gen.Pre_finite_inputs
import proofs.«117685_j69836168233269_1_alg».proof.Proof.KernelValue
import proofs.«117685_j69836168233269_1_alg».proof.Proof.RefRun
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories that agree on the six arguments both programs end with their results at the same function of
    the arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
